-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x2048x2048 : Shape := ⟨3, ![2, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) (main_arg3 : IVec S2x2048x2048 32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S2x2048x2048 : Shape := ⟨3, ![2, 2048, 2048]⟩
abbrev S1x16x256x64 : Shape := ⟨4, ![1, 16, 256, 64]⟩
abbrev S1x16x2048x64 : Shape := ⟨4, ![1, 16, 2048, 64]⟩
abbrev S1x256x2048 : Shape := ⟨3, ![1, 256, 2048]⟩
abbrev S256x2048 : Shape := ⟨2, ![256, 2048]⟩
abbrev S1x1x256x64 : Shape := ⟨4, ![1, 1, 256, 64]⟩
abbrev S256x64 : Shape := ⟨2, ![256, 64]⟩
abbrev S1x1x2048x64 : Shape := ⟨4, ![1, 1, 2048, 64]⟩
abbrev S2048x64 : Shape := ⟨2, ![2048, 64]⟩
abbrev S64x2048 : Shape := ⟨2, ![64, 2048]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x2048x2048, .i32⟩
  | .hbm, ⟨4, _⟩ => ⟨S2x16x2048x64, .f32⟩
  | .local _ .vmem, ⟨0, _⟩ => ⟨S1x16x256x64, .f32⟩
  | .local _ .vmem, ⟨1, _⟩ => ⟨S1x16x256x64, .f32⟩
  | .local _ .vmem, ⟨2, _⟩ => ⟨S1x16x2048x64, .f32⟩
  | .local _ .vmem, ⟨3, _⟩ => ⟨S1x16x2048x64, .f32⟩
  | .local _ .vmem, ⟨4, _⟩ => ⟨S1x256x2048, .i32⟩
  | .local _ .vmem, ⟨5, _⟩ => ⟨S1x256x2048, .i32⟩
  | .local _ .vmem, ⟨6, _⟩ => ⟨S1x16x256x64, .f32⟩
  | .local _ .vmem, ⟨7, _⟩ => ⟨S1x16x256x64, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x16x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x16x2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x16x2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x256x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x16x256x64_S1x1x256x64_0_0_0_0 : ∀ a, (![0, 0, 0, 0] : Fin 4 → Nat) a + S1x1x256x64.size a ≤ S1x16x256x64.size a
  h_S1x1x256x64 : 0 < S1x1x256x64.numel
  shapeCasts_S1x1x256x64_S256x64 : S1x1x256x64.ShapeCasts S256x64
  inb_S1x16x2048x64_S1x1x2048x64_0_0_0_0 : ∀ a, (![0, 0, 0, 0] : Fin 4 → Nat) a + S1x1x2048x64.size a ≤ S1x16x2048x64.size a
  h_S1x1x2048x64 : 0 < S1x1x2048x64.numel
  shapeCasts_S1x1x2048x64_S2048x64 : S1x1x2048x64.ShapeCasts S2048x64
  transposes_S2048x64_p1_0_S64x2048 : S2048x64.Transposes [1, 0] S64x2048
  reduces_S256x2048_S256 : S256x2048.Reduces [1] S256
  shapeCasts_S256_S256x1 : S256.ShapeCasts S256x1
  broadcasts_S256x1_S256x2048 : S256x1.Broadcasts S256x2048
  shapeCasts_S256x64_S1x1x256x64 : S256x64.ShapeCasts S1x1x256x64
  inb_S1x16x256x64_S1x1x256x64_0_1_0_0 : ∀ a, (![0, 1, 0, 0] : Fin 4 → Nat) a + S1x1x256x64.size a ≤ S1x16x256x64.size a
  inb_S1x16x2048x64_S1x1x2048x64_0_1_0_0 : ∀ a, (![0, 1, 0, 0] : Fin 4 → Nat) a + S1x1x2048x64.size a ≤ S1x16x2048x64.size a
  inb_S1x16x256x64_S1x1x256x64_0_2_0_0 : ∀ a, (![0, 2, 0, 0] : Fin 4 → Nat) a + S1x1x256x64.size a ≤ S1x16x256x64.size a
  inb_S1x16x2048x64_S1x1x2048x64_0_2_0_0 : ∀ a, (![0, 2, 0, 0] : Fin 4 → Nat) a + S1x1x2048x64.size a ≤ S1x16x2048x64.size a
  inb_S1x16x256x64_S1x1x256x64_0_3_0_0 : ∀ a, (![0, 3, 0, 0] : Fin 4 → Nat) a + S1x1x256x64.size a ≤ S1x16x256x64.size a
  inb_S1x16x2048x64_S1x1x2048x64_0_3_0_0 : ∀ a, (![0, 3, 0, 0] : Fin 4 → Nat) a + S1x1x2048x64.size a ≤ S1x16x2048x64.size a
  inb_S1x16x256x64_S1x1x256x64_0_4_0_0 : ∀ a, (![0, 4, 0, 0] : Fin 4 → Nat) a + S1x1x256x64.size a ≤ S1x16x256x64.size a
  inb_S1x16x2048x64_S1x1x2048x64_0_4_0_0 : ∀ a, (![0, 4, 0, 0] : Fin 4 → Nat) a + S1x1x2048x64.size a ≤ S1x16x2048x64.size a
  inb_S1x16x256x64_S1x1x256x64_0_5_0_0 : ∀ a, (![0, 5, 0, 0] : Fin 4 → Nat) a + S1x1x256x64.size a ≤ S1x16x256x64.size a
  inb_S1x16x2048x64_S1x1x2048x64_0_5_0_0 : ∀ a, (![0, 5, 0, 0] : Fin 4 → Nat) a + S1x1x2048x64.size a ≤ S1x16x2048x64.size a
  inb_S1x16x256x64_S1x1x256x64_0_6_0_0 : ∀ a, (![0, 6, 0, 0] : Fin 4 → Nat) a + S1x1x256x64.size a ≤ S1x16x256x64.size a
  inb_S1x16x2048x64_S1x1x2048x64_0_6_0_0 : ∀ a, (![0, 6, 0, 0] : Fin 4 → Nat) a + S1x1x2048x64.size a ≤ S1x16x2048x64.size a
  inb_S1x16x256x64_S1x1x256x64_0_7_0_0 : ∀ a, (![0, 7, 0, 0] : Fin 4 → Nat) a + S1x1x256x64.size a ≤ S1x16x256x64.size a
  inb_S1x16x2048x64_S1x1x2048x64_0_7_0_0 : ∀ a, (![0, 7, 0, 0] : Fin 4 → Nat) a + S1x1x2048x64.size a ≤ S1x16x2048x64.size a
  inb_S1x16x256x64_S1x1x256x64_0_8_0_0 : ∀ a, (![0, 8, 0, 0] : Fin 4 → Nat) a + S1x1x256x64.size a ≤ S1x16x256x64.size a
  inb_S1x16x2048x64_S1x1x2048x64_0_8_0_0 : ∀ a, (![0, 8, 0, 0] : Fin 4 → Nat) a + S1x1x2048x64.size a ≤ S1x16x2048x64.size a
  inb_S1x16x256x64_S1x1x256x64_0_9_0_0 : ∀ a, (![0, 9, 0, 0] : Fin 4 → Nat) a + S1x1x256x64.size a ≤ S1x16x256x64.size a
  inb_S1x16x2048x64_S1x1x2048x64_0_9_0_0 : ∀ a, (![0, 9, 0, 0] : Fin 4 → Nat) a + S1x1x2048x64.size a ≤ S1x16x2048x64.size a
  inb_S1x16x256x64_S1x1x256x64_0_10_0_0 : ∀ a, (![0, 10, 0, 0] : Fin 4 → Nat) a + S1x1x256x64.size a ≤ S1x16x256x64.size a
  inb_S1x16x2048x64_S1x1x2048x64_0_10_0_0 : ∀ a, (![0, 10, 0, 0] : Fin 4 → Nat) a + S1x1x2048x64.size a ≤ S1x16x2048x64.size a
  inb_S1x16x256x64_S1x1x256x64_0_11_0_0 : ∀ a, (![0, 11, 0, 0] : Fin 4 → Nat) a + S1x1x256x64.size a ≤ S1x16x256x64.size a
  inb_S1x16x2048x64_S1x1x2048x64_0_11_0_0 : ∀ a, (![0, 11, 0, 0] : Fin 4 → Nat) a + S1x1x2048x64.size a ≤ S1x16x2048x64.size a
  inb_S1x16x256x64_S1x1x256x64_0_12_0_0 : ∀ a, (![0, 12, 0, 0] : Fin 4 → Nat) a + S1x1x256x64.size a ≤ S1x16x256x64.size a
  inb_S1x16x2048x64_S1x1x2048x64_0_12_0_0 : ∀ a, (![0, 12, 0, 0] : Fin 4 → Nat) a + S1x1x2048x64.size a ≤ S1x16x2048x64.size a
  inb_S1x16x256x64_S1x1x256x64_0_13_0_0 : ∀ a, (![0, 13, 0, 0] : Fin 4 → Nat) a + S1x1x256x64.size a ≤ S1x16x256x64.size a
  inb_S1x16x2048x64_S1x1x2048x64_0_13_0_0 : ∀ a, (![0, 13, 0, 0] : Fin 4 → Nat) a + S1x1x2048x64.size a ≤ S1x16x2048x64.size a
  inb_S1x16x256x64_S1x1x256x64_0_14_0_0 : ∀ a, (![0, 14, 0, 0] : Fin 4 → Nat) a + S1x1x256x64.size a ≤ S1x16x256x64.size a
  inb_S1x16x2048x64_S1x1x2048x64_0_14_0_0 : ∀ a, (![0, 14, 0, 0] : Fin 4 → Nat) a + S1x1x2048x64.size a ≤ S1x16x2048x64.size a
  inb_S1x16x256x64_S1x1x256x64_0_15_0_0 : ∀ a, (![0, 15, 0, 0] : Fin 4 → Nat) a + S1x1x256x64.size a ≤ S1x16x256x64.size a
  inb_S1x16x2048x64_S1x1x2048x64_0_15_0_0 : ∀ a, (![0, 15, 0, 0] : Fin 4 → Nat) a + S1x1x2048x64.size a ≤ S1x16x2048x64.size a
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x256x64.size a ≤ S2x16x2048x64.size a
  hwx0_0 : ∀ i : grid0.Coords, EltTy.bits .f32 = 32 ∨ (Rect.block (s := S2x16x2048x64) S1x16x256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16x2048x64.size a ≤ S2x16x2048x64.size a
  hwx0_1 : ∀ i : grid0.Coords, EltTy.bits .f32 = 32 ∨ (Rect.block (s := S2x16x2048x64) S1x16x2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16x2048x64.size a ≤ S2x16x2048x64.size a
  hwx0_2 : ∀ i : grid0.Coords, EltTy.bits .f32 = 32 ∨ (Rect.block (s := S2x16x2048x64) S1x16x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S2x2048x2048.size a
  hwx0_3 : ∀ i : grid0.Coords, EltTy.bits .i32 = 32 ∨ (Rect.block (s := S2x2048x2048) S1x256x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x256x64.size a ≤ S2x16x2048x64.size a
  hwx0_4 : ∀ i : grid0.Coords, EltTy.bits .f32 = 32 ∨ (Rect.block (s := S2x16x2048x64) S1x16x256x64.size (cc0_transform_4 i) (hinb0_4 i)).WholeWords (EltTy.packing .f32)

variable [Facts₀]

def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x16x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16x2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x16x2048x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x16x256x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x2048x2048 : Shape := ⟨3, ![2, 2048, 2048]⟩
abbrev S2x16x2048x2048 : Shape := ⟨4, ![2, 16, 2048, 2048]⟩
abbrev S_ : Shape := ⟨0, ![]⟩
abbrev S2x1x2048x2048 : Shape := ⟨4, ![2, 1, 2048, 2048]⟩
abbrev S2x16x2048 : Shape := ⟨3, ![2, 16, 2048]⟩
abbrev S2x16x2048x1 : Shape := ⟨4, ![2, 16, 2048, 1]⟩

abbrev nBuf : Space → Nat
  | .hbm => 33
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x2048x2048, .i32⟩
  | .hbm, ⟨4, _⟩ => ⟨S2x16x2048x2048, .f32⟩
  | .hbm, ⟨5, _⟩ => ⟨S_, .f32⟩
  | .hbm, ⟨6, _⟩ => ⟨S_, .f32⟩
  | .hbm, ⟨7, _⟩ => ⟨S2x16x2048x2048, .f32⟩
  | .hbm, ⟨8, _⟩ => ⟨S2x16x2048x2048, .f32⟩
  | .hbm, ⟨9, _⟩ => ⟨S2x1x2048x2048, .i32⟩
  | .hbm, ⟨10, _⟩ => ⟨S_, .i32⟩
  | .hbm, ⟨11, _⟩ => ⟨S2x1x2048x2048, .i32⟩
  | .hbm, ⟨12, _⟩ => ⟨S2x1x2048x2048, .i1⟩
  | .hbm, ⟨13, _⟩ => ⟨S_, .f32⟩
  | .hbm, ⟨14, _⟩ => ⟨S_, .f32⟩
  | .hbm, ⟨15, _⟩ => ⟨S2x16x2048x2048, .i1⟩
  | .hbm, ⟨16, _⟩ => ⟨S2x16x2048x2048, .f32⟩
  | .hbm, ⟨17, _⟩ => ⟨S2x16x2048x2048, .f32⟩
  | .hbm, ⟨18, _⟩ => ⟨S_, .f32⟩
  | .hbm, ⟨19, _⟩ => ⟨S2x16x2048, .f32⟩
  | .hbm, ⟨20, _⟩ => ⟨S_, .f32⟩
  | .hbm, ⟨21, _⟩ => ⟨S2x16x2048, .f32⟩
  | .hbm, ⟨22, _⟩ => ⟨S2x16x2048, .f32⟩
  | .hbm, ⟨23, _⟩ => ⟨S2x16x2048x1, .f32⟩
  | .hbm, ⟨24, _⟩ => ⟨S2x16x2048x2048, .f32⟩
  | .hbm, ⟨25, _⟩ => ⟨S2x16x2048x2048, .f32⟩
  | .hbm, ⟨26, _⟩ => ⟨S2x16x2048x2048, .f32⟩
  | .hbm, ⟨27, _⟩ => ⟨S_, .f32⟩
  | .hbm, ⟨28, _⟩ => ⟨S2x16x2048, .f32⟩
  | .hbm, ⟨29, _⟩ => ⟨S2x16x2048x1, .f32⟩
  | .hbm, ⟨30, _⟩ => ⟨S2x16x2048x2048, .f32⟩
  | .hbm, ⟨31, _⟩ => ⟨S2x16x2048x2048, .f32⟩
  | .hbm, ⟨32, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  bcast_S2x2048x2048_S2x1x2048x2048_0_2_3 : S2x2048x2048.BroadcastsInDim S2x1x2048x2048 (![0, 2, 3] : Fin 3 → Fin S2x1x2048x2048.rank)
  bcast_S_S2x1x2048x2048 : S_.BroadcastsInDim S2x1x2048x2048 (![] : Fin 0 → Fin S2x1x2048x2048.rank)
  bcast_S2x1x2048x2048_S2x16x2048x2048_0_1_2_3 : S2x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.AttnRow.lean ====
/-
  One query row of masked, scaled dot-product attention, on the extended reals.

  A row of scores is `s j` for the key positions `j`; a masked position scores `-∞`, an unmasked one the dot product of
  the query with the key, scaled. The row's weights are `exp (s j - M) / ∑ j', exp (s j' - M)` with `M` the largest
  score (a maximum taken from `-∞`), and the row's output in a value column `v` is `∑ j, weight j · v j`.

  Two programs that compute this row may differ in how they scale a score — multiplying by `1/8` or dividing by `√64` —
  and one may take the maximum with `-∞` once more. Neither changes anything on the extended reals: `√64 = 8` exactly,
  dividing by a nonzero real is multiplying by its inverse at every extended real (the infinities included), and
  `-∞` is the least element. The three float patterns involved are read here, once.
-/
import Idealize.ShloMosaic.PureOps.Ideal

noncomputable section

namespace Cert.AttnRow

open Idealize.ShloMosaic
open scoped BigOperators

/-! ## The patterns -/

/-- The pattern `0xFF800000` is `-∞`, the least extended real. -/
theorem negInf_eq : Ideal.ofBits .f32 0xFF800000#32 = ⊥ := by
  simp [Ideal.ofBits, Ideal.ieee]

/-- The pattern `0x3E000000` is `1/8`. -/
theorem eighth_eq : Ideal.ofBits .f32 0x3E000000#32 = ((1 / 8 : ℝ) : EReal) := by
  simp [Ideal.ofBits, Ideal.ieee, -EReal.coe_mul]; norm_num

/-- The pattern `0x42800000` is `64`. -/
theorem sixtyFour_eq : Ideal.ofBits .f32 0x42800000#32 = ((64 : ℝ) : EReal) := by
  simp [Ideal.ofBits, Ideal.ieee, -EReal.coe_mul]; norm_num

/-! ## The two scalar laws -/

/-- `√64 = 8`. -/
theorem sqrt_sixtyFour : Ideal.sqrt ((64 : ℝ) : EReal) = ((8 : ℝ) : EReal) := by
  rw [Ideal.sqrt_coe, if_neg (by norm_num)]
  congr 1
  rw [show (64 : ℝ) = 8 ^ 2 by norm_num]
  exact Real.sqrt_sq (by norm_num)

/-- Scaling by `1/8` is dividing by `√64`, at every extended real. -/
theorem scale_eq (x : EReal) :
    x * Ideal.ofBits .f32 0x3E000000#32 = Ideal.div x (Ideal.sqrt (Ideal.ofBits .f32 0x42800000#32)) := by
  rw [eighth_eq, sixtyFour_eq, sqrt_sixtyFour, Ideal.div_coe (by norm_num : (8 : ℝ) ≠ 0)]

/-- The maximum with `-∞` is the other argument. -/
theorem max_negInf (x : EReal) : max (Ideal.ofBits .f32 0xFF800000#32) x = x := by
  rw [negInf_eq]; exact max_eq_right bot_le

/-! ## The row -/

/-- One score: `-∞` where the mask word is zero, else the scaled dot product of a query and a key. -/
def score (w : BitVec 32) (a b : Fin 64 → EReal) : EReal :=
  Scalar.select (IntOp.cmpi .eq w 0#32) (Ideal.ofBits .f32 0xFF800000#32)
    ((∑ d : Fin 64, a d * b d) * Ideal.ofBits .f32 0x3E000000#32)

/-- The largest score of a row, taken from `-∞`. -/
def rowMax (s : Fin 2048 → EReal) : EReal :=
  (Finset.univ : Finset (Fin 2048)).fold max (Ideal.ofBits .f32 0xFF800000#32) s

/-- The weight of key position `j` in a row of scores. -/
def weight (s : Fin 2048 → EReal) (j : Fin 2048) : EReal :=
  Ideal.div (Ideal.exp (s j - rowMax s)) (∑ j' : Fin 2048, Ideal.exp (s j' - rowMax s))

/-- The row's output in one value column. -/
def rowOut (s v : Fin 2048 → EReal) : EReal :=
  ∑ j : Fin 2048, weight s j * v j

end Cert.AttnRow

end
-- ==== Proof.LibPlainMatmul.lean ====
/-
  A plain matrix product read at an entry.

  For the dimension numbers "contract the left operand's second axis with the right operand's first" an `[M, K]` by
  `[K, N]` product, accumulated into a zero array, has at row `p` and column `c` the entry
  `∑ k, W p k · X k c` over the extended reals: the contraction position is its one coordinate `k`, the left operand is
  read at `(p, k)` and the right one at `(k, c)`. The same reading holds of a host `dot_general` with those dimension
  numbers, which has no accumulator.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

variable (M K N : ℕ)

/-- The left operand's row coordinate is the result's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction position. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction positions, re-indexed by the one coordinate. -/
theorem sum_contr {φ₁ φ₂ : FTy} (W : FVec Ideal ⟨2, ![M, K]⟩ φ₁) (X : FVec Ideal ⟨2, ![K, N]⟩ φ₂) (p : Fin M) (c : Fin N) :
    (∑ q : (DotDims.plain M K N).contr.Idx,
        W ((DotDims.plain M K N).lhsIdx (ix2 p c) q) * X ((DotDims.plain M K N).rhsIdx (ix2 p c) q))
      = ∑ k : Fin K, W (ix2 p k) * X (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p c) ((contrEquiv1 (DotDims.plain M K N) K rfl rfl).symm k) = ix2 k c :=
    funext fun a => Fin.ext (by
      match a with
      | ⟨0, _⟩ => exact (rhs_row M K N _ _).trans hk
      | ⟨1, _⟩ => exact rhs_col M K N _ _)
  rw [el, er]

/-- A kernel's matrix product into a zero accumulator, at an entry. -/
theorem matmul_zero_apply {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, W (ix2 p k) * X (ix2 k c) := by
  simp only [matmul]
  rw [Ideal.matmul_constant_zero_apply]
  exact sum_contr M K N W X p c

/-- The same with each product's factors swapped: the form in which a product computed in a transposed layout
    (`W · Xᵀ` laid out as features by batch) meets the row-major product `X · Wᵀ`. -/
theorem matmul_zero_apply_comm {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, X (ix2 k c) * W (ix2 p k) := by
  rw [matmul_zero_apply]
  exact Finset.sum_congr rfl fun k _ => mul_comm _ _

/-- A host product, at an entry. -/
theorem dotGeneral_apply {φ₁ φ₂ : FTy} (prec : Option ContractPrecision) (W : FVec Ideal ⟨2, ![M, K]⟩ φ₁)
    (X : FVec Ideal ⟨2, ![K, N]⟩ φ₂) (p : Fin M) (c : Fin N) :
    Host.dotGeneral (DotDims.plain M K N) prec W X (ix2 p c) = ∑ k : Fin K, W (ix2 p k) * X (ix2 k c) := by
  simp only [Host.dotGeneral]
  rw [Ideal.dotGeneral_apply]
  exact sum_contr M K N W X p c

end Cert.LibPlainMatmul

end
-- ==== Proof.LibUnitAxisCasts.lean ====
/-
  Reshapes that only add or drop a unit axis, read at an entry.

  Dropping the leading unit axis of a `[1, a, b]` array gives the `[a, b]` array whose entry `(p, c)` is the
  operand's entry `(0, p, c)`; turning an `[a]` vector into an `[a, 1]` column gives the column whose entry `(p, 0)` is
  the vector's entry `p`. Both hold because a reshape keeps every entry's row-major position.
-/
import Idealize.ShloMosaic.Lib.Pipeline.Value
import Idealize.ShloMosaic.Lib.ValueIdx

namespace Cert.LibUnitAxisCasts

open Idealize.ShloMosaic Idealize.ShloMosaic.ValueIdx

/-- `[1, a, b] → [a, b]`: entry `(p, c)` is the operand's `(0, p, c)`. -/
theorem shapeCast_1ab_ab_apply {α : Type} {a b : ℕ} (v : (⟨3, ![1, a, b]⟩ : Shape).Idx → α)
    (h : (⟨3, ![1, a, b]⟩ : Shape).ShapeCasts ⟨2, ![a, b]⟩) (p : Fin a) (c : Fin b) :
    shapeCast ⟨2, ![a, b]⟩ v h (ix2 p c) = v (ix3 (0 : Fin 1) p c) :=
  shapeCast_apply v h (ix2 p c) (ix3 (0 : Fin 1) p c) (by
    rw [Shape.rowMajor_val_three, Shape.rowMajor_val_two]
    show ((0 : ℕ) * a + p.val) * b + c.val = p.val * b + c.val
    rw [Nat.zero_mul, Nat.zero_add])

/-- `[a] → [a, 1]`: entry `(p, 0)` is the operand's `p`. -/
theorem shapeCast_a_a1_apply {α : Type} {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]
    show p.val = p.val * 1 + 0
    omega)

end Cert.LibUnitAxisCasts
-- ==== Proof.LibColumnBroadcast.lean ====
/-
  A column spread over many columns, read at an entry.

  A `vector.broadcast` of an `[a, 1]` array to `[a, b]` repeats the one column `b` times: the entry at row `p` and column
  `c` is the column's entry at row `p`, whatever `c`. (The companion of the row form `[1, b] → [a, b]`; it is what a
  reduction that keeps its axis, or a bias turned into a column, is spread back with.)
-/
import Idealize.ShloMosaic.Lib.Pipeline.Value
import Idealize.ShloMosaic.Lib.ValueIdx

namespace Cert.LibColumnBroadcast

open Idealize.ShloMosaic Idealize.ShloMosaic.ValueIdx

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.HeadValue.lean ====
/-
  One attention head on one tile of queries, as the kernel body computes it, and what it is entry by entry.

  From a `[256, 64]` tile of queries `q`, the head's `[2048, 64]` keys `k` and values `v`, and a `[256, 2048]` array `msk`
  of one-bit words (one where the position is masked), the body forms
    scores  = select msk (-∞) ((q · kᵀ) · 1/8)                                          `[256, 2048]`
    probs   = e / (row sums of e),   e = exp (scores - row maxima of scores)              `[256, 2048]`
    out     = probs · v                                                                   `[256, 64]`
  with the row maxima and row sums kept as columns and spread back over the row. These are written below with the body's
  own operations, at any float instance, so that every store of the body is one of them by unfolding.

  On the extended reals, row `r` of `scores` is a row of scores in the sense of `AttnRow` — entry `j` is `-∞` where
  masked and `(∑ d, q r d · k j d) · 1/8` elsewhere —, row `r` of `probs` is that row's weights, and entry `(r, c)` of
  `out` is that row's output in column `c` of `v`. The matrix products are plain sums over the contracted coordinate (the
  first one of `q` with the transposed keys, so its terms read `k` at `(j, d)`); a row maximum is a fold of `max` from
  `-∞` over the row's coordinates and a row sum a sum over them.
-/
import proofs.«172314_j25907242729928_2_alg».proof.Proof.Gen.KernelIdeal
import proofs.«172314_j25907242729928_2_alg».proof.Proof.AttnRow
import proofs.«172314_j25907242729928_2_alg».proof.Proof.LibPlainMatmul
import proofs.«172314_j25907242729928_2_alg».proof.Proof.LibUnitAxisCasts
import proofs.«172314_j25907242729928_2_alg».proof.Proof.LibColumnBroadcast
import Idealize.ShloMosaic.Lib.ValueIdx
import Idealize.ShloMosaic.Lib.ValueLayout
import Idealize.ShloMosaic.Lib.Pipeline.Value
import Idealize.ShloMosaic.PureOps.Ideal.Laws

noncomputable section

namespace Cert.AttnHead

open Idealize.ShloMosaic Idealize.ShloMosaic.ValueIdx
open Cert.KernelIdeal Cert.KernelIdeal.Facts₀ Cert.KernelIdeal.Facts
open scoped BigOperators

/-! ## The body's three stages, at any float instance -/

section Generic

variable {F : FTy → Type} [FloatOps F]

/-- Masked, scaled scores of a tile of queries against a head's keys. -/
def scores (msk : IVec S256x2048 1) (q : FVec F S256x64 .f32) (k : FVec F S2048x64 .f32) : FVec F S256x2048 .f32 :=
  select msk (broadcast S256x2048 (Scalar.ofBits .f32 0xFF800000#32))
    (mulf (matmul dot_S256x64_S64x2048_S256x2048_1_0_0_1_n_n (some .fp32) q
        (transpose S64x2048 [1, 0] k transposes_S2048x64_p1_0_S64x2048) (constant S256x2048 .f32 0x00000000#32))
      (broadcast S256x2048 (Scalar.ofBits .f32 0x3E000000#32)))

/-- The exponentials of a tile of scores, each row shifted by its maximum. -/
def expShift (s : FVec F S256x2048 .f32) : FVec F S256x2048 .f32 :=
  exp (subf s (broadcastTo S256x2048
    (shapeCast S256x1 (multiReduction .maximumf [1] S256 s 0xFF800000#32 reduces_S256x2048_S256 (.inl rfl) rfl)
      shapeCasts_S256_S256x1) broadcasts_S256x1_S256x2048))

/-- The rows of a tile of scores, normalised: each shifted exponential over its row's sum. -/
def probs (s : FVec F S256x2048 .f32) : FVec F S256x2048 .f32 :=
  divf (expShift s) (broadcastTo S256x2048
    (shapeCast S256x1 (multiReduction .add [1] S256 (expShift s) 0x00000000#32 reduces_S256x2048_S256 (.inl rfl) rfl)
      shapeCasts_S256_S256x1) broadcasts_S256x1_S256x2048)

/-- The head's output tile. -/
def out (msk : IVec S256x2048 1) (q : FVec F S256x64 .f32) (k v : FVec F S2048x64 .f32) : FVec F S256x64 .f32 :=
  matmul dot_S256x2048_S2048x64_S256x64_1_0_0_1_n_n (some .fp32) (probs (scores msk q k)) v
    (constant S256x64 .f32 0x00000000#32)

end Generic

/-! ## Entry by entry, on the extended reals -/

/-- The two products' dimension numbers are the plain ones. -/
theorem dotQK_eq : dot_S256x64_S64x2048_S256x2048_1_0_0_1_n_n = DotDims.plain 256 64 2048 := rfl
theorem dotPV_eq : dot_S256x2048_S2048x64_S256x64_1_0_0_1_n_n = DotDims.plain 256 2048 64 := rfl

/-- The index over row `r` with coordinate `j` inserted on the reduced axis is `(r, j)`. -/
theorem lift_row (r : Fin 256) (j : Fin 2048) :
    (reduces_S256x2048_S256).lift (ix1 r) j = ix2 r j :=
  funext fun a => Fin.ext (by match a with | ⟨0, _⟩ => rfl | ⟨1, _⟩ => rfl)

/-- An entry of the scores: `-∞` where masked, else the scaled dot product of query row `r` with key row `j`. -/
theorem scores_apply (msk : IVec S256x2048 1) (q : FVec Ideal S256x64 .f32) (k : FVec Ideal S2048x64 .f32)
    (r : Fin 256) (j : Fin 2048) :
    scores msk q k (ix2 r j)
      = Scalar.select (msk (ix2 r j)) (Ideal.ofBits .f32 0xFF800000#32)
          ((∑ d : Fin 64, q (ix2 r d) * k (ix2 j d)) * Ideal.ofBits .f32 0x3E000000#32) := by
  unfold scores
  rw [select_apply, mulf_apply, broadcast_apply, broadcast_apply, dotQK_eq,
    Cert.LibPlainMatmul.matmul_zero_apply 256 64 2048]
  refine congrArg (fun x => Scalar.select (msk (ix2 r j)) _ (x * _)) (Finset.sum_congr rfl fun d _ => ?_)
  rw [transpose_ix2_apply]

/-- A row's maximum, kept as a column and spread back, is that row's maximum at every entry of the row. -/
theorem rowMax_apply (s : FVec Ideal S256x2048 .f32) (r : Fin 256) (j : Fin 2048) :
    broadcastTo S256x2048
        (shapeCast S256x1 (multiReduction .maximumf [1] S256 s 0xFF800000#32 reduces_S256x2048_S256 (.inl rfl) rfl)
          shapeCasts_S256_S256x1) broadcasts_S256x1_S256x2048 (ix2 r j)
      = Cert.AttnRow.rowMax fun j' => s (ix2 r j') := by
  rw [Cert.LibColumnBroadcast.broadcastTo_a1_ab_apply, Cert.LibUnitAxisCasts.shapeCast_a_a1_apply]
  refine (Ideal.multiReduction_maximumf_single s 0xFF800000#32 reduces_S256x2048_S256 (.inl rfl) rfl (ix1 r)).trans ?_
  unfold Cert.AttnRow.rowMax
  refine congrArg (Finset.fold max _ · _) (funext fun j' => ?_)
  exact congrArg s (lift_row r j')

/-- An entry of the shifted exponentials. -/
theorem expShift_apply (s : FVec Ideal S256x2048 .f32) (r : Fin 256) (j : Fin 2048) :
    expShift s (ix2 r j) = Ideal.exp (s (ix2 r j) - Cert.AttnRow.rowMax fun j' => s (ix2 r j')) := by
  unfold expShift
  show Ideal.exp (subf s _ (ix2 r j)) = _
  rw [subf_apply, rowMax_apply]

/-- An entry of the normalised rows is the row's weight at that key position. -/
theorem probs_apply (s : FVec Ideal S256x2048 .f32) (r : Fin 256) (j : Fin 2048) :
    probs s (ix2 r j) = Cert.AttnRow.weight (fun j' => s (ix2 r j')) j := by
  unfold probs
  rw [divf_apply, Cert.LibColumnBroadcast.broadcastTo_a1_ab_apply, Cert.LibUnitAxisCasts.shapeCast_a_a1_apply, expShift_apply]
  unfold Cert.AttnRow.weight
  refine congrArg (Ideal.div _) ?_
  refine (Ideal.multiReduction_add_single (expShift s) 0x00000000#32 reduces_S256x2048_S256 (.inl rfl) rfl (ix1 r)).trans ?_
  refine Finset.sum_congr rfl fun j' _ => ?_
  exact (congrArg (expShift s) (lift_row r j')).trans (expShift_apply s r j')

/-- An entry of the head's output: the row's output in that column of the values. -/
theorem out_apply (msk : IVec S256x2048 1) (q : FVec Ideal S256x64 .f32) (k v : FVec Ideal S2048x64 .f32)
    (r : Fin 256) (c : Fin 64) :
    out msk q k v (ix2 r c)
      = Cert.AttnRow.rowOut
          (fun j => Scalar.select (msk (ix2 r j)) (Ideal.ofBits .f32 0xFF800000#32)
            ((∑ d : Fin 64, q (ix2 r d) * k (ix2 j d)) * Ideal.ofBits .f32 0x3E000000#32))
          (fun j => v (ix2 j c)) := by
  unfold out
  rw [dotPV_eq, Cert.LibPlainMatmul.matmul_zero_apply 256 2048 64]
  unfold Cert.AttnRow.rowOut
  refine Finset.sum_congr rfl fun j _ => ?_
  rw [probs_apply]
  refine congrArg (fun f => Cert.AttnRow.weight f j * _) (funext fun j' => ?_)
  exact scores_apply msk q k r j'

end Cert.AttnHead

end
-- ==== Proof.HeadPieces.lean ====
/-
  The body's sixteen stores, one per head, are sixteen copies of one function.

  The body works through the heads one after the other: for head `h` it loads the head's `[1, 1, 256, 64]` piece of the
  query block and the head's `[1, 1, 2048, 64]` pieces of the key and value blocks, drops the two unit axes, computes
  the head's output tile (`AttnHead.out`) under the mask computed once from the mask block, puts the unit axes back and
  stores the piece at head `h` of the output block. The text of the body is cut into consecutive stretches, so the
  stores' payloads are spelt over different intermediate values from head to head — a loaded piece already cast, the
  scaled products, the normalised rows — but each is the same composite of the head's three loaded pieces and the
  mask, by unfolding.
-/
import proofs.«172314_j25907242729928_2_alg».proof.Proof.Gen.KernelIdeal.Skeleton
import proofs.«172314_j25907242729928_2_alg».proof.Proof.HeadValue

noncomputable section

namespace Cert.AttnBlock

open Idealize.ShloMosaic
open Cert.KernelIdeal Cert.KernelIdeal.Gen

variable {F : FTy → Type} [FloatOps F]

/-- A head's output tile as the `[1, 1, 256, 64]` piece that is stored, from the mask and the head's three loaded
    pieces. -/
def headPiece (m : IVec S256x2048 1) (a : Vec F S1x1x256x64 .f32) (b c : Vec F S1x1x2048x64 .f32) :
    FVec F S1x1x256x64 .f32 :=
  shapeCast S1x1x256x64
    (Cert.AttnHead.out m (shapeCast S256x64 a Facts₀.shapeCasts_S1x1x256x64_S256x64)
      (shapeCast S2048x64 b Facts₀.shapeCasts_S1x1x2048x64_S2048x64)
      (shapeCast S2048x64 c Facts₀.shapeCasts_S1x1x2048x64_S2048x64))
    Facts₀.shapeCasts_S256x64_S1x1x256x64

/-! ## Each store's payload is that piece -/

/-- The first head's store also computes the mask's comparison. -/
theorem pay3_eq (v0 : Vec F S1x256x2048 .i32) (a : Vec F S1x1x256x64 .f32) (b c : Vec F S1x1x2048x64 .f32) :
    k0_pay3 v0 a b c = headPiece (k0_pay2 v0) a b c := rfl
theorem pay4_eq (m : IVec S256x2048 1) (a : Vec F S1x1x256x64 .f32) (b c : Vec F S1x1x2048x64 .f32) :
    k0_pay4 m a b c = headPiece m a b c := rfl
theorem pay15_eq (m : IVec S256x2048 1) (a : Vec F S1x1x256x64 .f32) (b c : Vec F S1x1x2048x64 .f32) :
    k0_pay15 m a b c = headPiece m a b c := rfl
theorem pay16_eq (m : IVec S256x2048 1) (a : Vec F S1x1x256x64 .f32) (b c : Vec F S1x1x2048x64 .f32) :
    k0_pay16 m a b c = headPiece m a b c := rfl
theorem pay27_eq (m : IVec S256x2048 1) (a : Vec F S1x1x256x64 .f32) (b c : Vec F S1x1x2048x64 .f32) :
    k0_pay27 m a b c = headPiece m a b c := rfl
theorem pay28_eq (m : IVec S256x2048 1) (a : Vec F S1x1x256x64 .f32) (b c : Vec F S1x1x2048x64 .f32) :
    k0_pay28 m a b c = headPiece m a b c := rfl
theorem pay7_eq (m : IVec S256x2048 1) (a : Vec F S1x1x256x64 .f32) (b c : Vec F S1x1x2048x64 .f32) :
    k0_pay7 m (k0_pay5 a) (k0_pay6 b) c = headPiece m a b c := rfl
theorem pay19_eq (m : IVec S256x2048 1) (a : Vec F S1x1x256x64 .f32) (b c : Vec F S1x1x2048x64 .f32) :
    k0_pay19 m (k0_pay17 a) (k0_pay18 b) c = headPiece m a b c := rfl
theorem pay31_eq (m : IVec S256x2048 1) (a : Vec F S1x1x256x64 .f32) (b c : Vec F S1x1x2048x64 .f32) :
    k0_pay31 m (k0_pay29 a) (k0_pay30 b) c = headPiece m a b c := rfl
theorem pay11_eq (m : IVec S256x2048 1) (a : Vec F S1x1x256x64 .f32) (b c : Vec F S1x1x2048x64 .f32) :
    k0_pay11 m (k0_pay8 c) (k0_pay9 a b) (k0_pay10 (F := F)) = headPiece m a b c := rfl
theorem pay23_eq (m : IVec S256x2048 1) (a : Vec F S1x1x256x64 .f32) (b c : Vec F S1x1x2048x64 .f32) :
    k0_pay23 m (k0_pay20 c) (k0_pay21 a b) (k0_pay22 (F := F)) = headPiece m a b c := rfl
theorem pay35_eq (m : IVec S256x2048 1) (a : Vec F S1x1x256x64 .f32) (b c : Vec F S1x1x2048x64 .f32) :
    k0_pay35 m (k0_pay32 c) (k0_pay33 a b) (k0_pay34 (F := F)) = headPiece m a b c := rfl
theorem pay14_eq (m : IVec S256x2048 1) (a : Vec F S1x1x256x64 .f32) (b c : Vec F S1x1x2048x64 .f32) :
    k0_pay14 (k0_pay12 c) (k0_pay13 m a b) = headPiece m a b c := rfl
theorem pay26_eq (m : IVec S256x2048 1) (a : Vec F S1x1x256x64 .f32) (b c : Vec F S1x1x2048x64 .f32) :
    k0_pay26 (k0_pay24 c) (k0_pay25 m a b) = headPiece m a b c := rfl
theorem pay38_eq (m : IVec S256x2048 1) (a : Vec F S1x1x256x64 .f32) (b c : Vec F S1x1x2048x64 .f32) :
    k0_pay38 (k0_pay36 c) (k0_pay37 m a b) = headPiece m a b c := rfl
theorem pay1_eq (m : IVec S256x2048 1) (a : Vec F S1x1x256x64 .f32) (b c : Vec F S1x1x2048x64 .f32) :
    k0_pay1 (k0_pay39 c) (k0_pay40 m a b) = headPiece m a b c := rfl

end Cert.AttnBlock

end
-- ==== Proof.BlockValue.lean ====
/-
  The output block a grid point leaves, as one function of the block index.

  At a grid point the body sees a `[1, 16, 256, 64]` block of queries, `[1, 16, 2048, 64]` blocks of keys and values and
  a `[1, 256, 2048]` block of mask words, and stores sixteen `[1, 1, 256, 64]` pieces that tile the `[1, 16, 256, 64]`
  output block, head by head. Entry `(0, h, r, c)` of what it leaves is entry `(r, c)` of head `h`'s output tile computed
  from head `h` of the three input blocks and the mask block: every piece is the restriction of this one function to
  its rectangle, and the pieces cover the block.
-/
import proofs.«172314_j25907242729928_2_alg».proof.Proof.Gen.KernelIdeal.Frame
import proofs.«172314_j25907242729928_2_alg».proof.Proof.HeadPieces

set_option maxRecDepth 16384

noncomputable section

namespace Cert.AttnBlock

open Idealize.ShloMosaic Idealize.ShloMosaic.ValueIdx
open Cert.KernelIdeal Cert.KernelIdeal.Gen

variable {F : FTy → Type} [FloatOps F]

/-- Head `h` of a `[1, 16, n, 64]` block, as an `[n, 64]` array. -/
def headOf {α : Type} {n : ℕ} (x : (⟨4, ![1, 16, n, 64]⟩ : Shape).Idx → α) (h : Fin 16) :
    (⟨2, ![n, 64]⟩ : Shape).Idx → α :=
  fun i => x (ix4 (0 : Fin 1) h (i 0) (i 1))

/-- The output block from the mask (already compared with zero) and the three input blocks: entry `(0, h, r, c)` is
    entry `(r, c)` of head `h`'s output tile. -/
def blockOf (m : IVec S256x2048 1) (x0 : Vec F S1x16x256x64 .f32) (x1 x2 : Vec F S1x16x2048x64 .f32) :
    Vec F S1x16x256x64 .f32 :=
  fun y => Cert.AttnHead.out m (headOf x0 (y 1)) (headOf x1 (y 1)) (headOf x2 (y 1)) (ix2 (y 2) (y 3))

theorem blockOf_apply (m : IVec S256x2048 1) (x0 : Vec F S1x16x256x64 .f32) (x1 x2 : Vec F S1x16x2048x64 .f32)
    (h : Fin 16) (r : Fin 256) (c : Fin 64) :
    blockOf m x0 x1 x2 (ix4 (0 : Fin 1) h r c)
      = Cert.AttnHead.out m (headOf x0 h) (headOf x1 h) (headOf x2 h) (ix2 r c) := rfl

/-- The rectangle of head `hn` in a `[1, 16, n, 64]` block places `(u0, u1, r, c)` at `(0, hn, r, c)`. -/
theorem emb_head {n : ℕ} (hn : ℕ) (hh : hn < 16)
    (inb : ∀ a, (![0, hn, 0, 0] : Fin 4 → ℕ) a + (![1, 1, n, 64] : Fin 4 → ℕ) a ≤ (⟨4, ![1, 16, n, 64]⟩ : Shape).size a)
    (u0 u1 : Fin 1) (r : Fin n) (c : Fin 64) :
    (Rect.unit (s := ⟨4, ![1, 16, n, 64]⟩) ![0, hn, 0, 0] ![1, 1, n, 64] inb).emb (ix4 u0 u1 r c)
      = ix4 (0 : Fin 1) (⟨hn, hh⟩ : Fin 16) r c := by
  funext a
  apply Fin.ext
  match a with
  | ⟨0, _⟩ => show 0 + 1 * u0.val = 0; have := u0.isLt; omega
  | ⟨1, _⟩ => show hn + 1 * u1.val = hn; have := u1.isLt; omega
  | ⟨2, _⟩ => show 0 + 1 * r.val = r.val; omega
  | ⟨3, _⟩ => show 0 + 1 * c.val = c.val; omega

/-- A head's loaded piece with its unit axes dropped is that head of the block. -/
theorem cast_ld_head {α : Type} {n : ℕ} (hn : ℕ) (hh : hn < 16)
    (inb : ∀ a, (![0, hn, 0, 0] : Fin 4 → ℕ) a + (![1, 1, n, 64] : Fin 4 → ℕ) a ≤ (⟨4, ![1, 16, n, 64]⟩ : Shape).size a)
    (x : (⟨4, ![1, 16, n, 64]⟩ : Shape).Idx → α)
    (hc : (⟨4, ![1, 1, n, 64]⟩ : Shape).ShapeCasts ⟨2, ![n, 64]⟩) :
    shapeCast ⟨2, ![n, 64]⟩ (fun y => x ((Rect.unit (s := ⟨4, ![1, 16, n, 64]⟩) ![0, hn, 0, 0] ![1, 1, n, 64] inb).emb y)) hc
      = headOf x ⟨hn, hh⟩ := by
  funext i
  obtain ⟨r, c, rfl⟩ : ∃ (r : Fin n) (c : Fin 64), i = ix2 r c := ⟨i 0, i 1, eq_ix2 i⟩
  rw [shapeCast_apply _ hc (ix2 r c) (ix4 (0 : Fin 1) (0 : Fin 1) r c) (by
    rw [Shape.rowMajor_val_four, Shape.rowMajor_val_two]
    show (((0 : ℕ) * 1 + 0) * n + r.val) * 64 + c.val = r.val * 64 + c.val
    omega)]
  show x _ = x _
  rw [emb_head hn hh inb]
  rfl

/-- The piece stored for head `hn`, at `(u0, u1, r, c)`, is the block function at `(0, hn, r, c)`. -/
theorem piece_eq (hn : ℕ) (hh : hn < 16)
    (inbq : ∀ a, (![0, hn, 0, 0] : Fin 4 → ℕ) a + S1x1x256x64.size a ≤ S1x16x256x64.size a)
    (inbk : ∀ a, (![0, hn, 0, 0] : Fin 4 → ℕ) a + S1x1x2048x64.size a ≤ S1x16x2048x64.size a)
    (m : IVec S256x2048 1) (x0 : Vec F S1x16x256x64 .f32) (x1 x2 : Vec F S1x16x2048x64 .f32)
    (x : S1x1x256x64.Idx) :
    headPiece m (View.ld x0 (Rect.unit (s := S1x16x256x64) ![0, hn, 0, 0] S1x1x256x64.size inbq))
        (View.ld x1 (Rect.unit (s := S1x16x2048x64) ![0, hn, 0, 0] S1x1x2048x64.size inbk))
        (View.ld x2 (Rect.unit (s := S1x16x2048x64) ![0, hn, 0, 0] S1x1x2048x64.size inbk)) x
      = blockOf m x0 x1 x2 ((Rect.unit (s := S1x16x256x64) ![0, hn, 0, 0] S1x1x256x64.size inbq).emb x) := by
  obtain ⟨u0, u1, r, c, rfl⟩ : ∃ (u0 u1 : Fin 1) (r : Fin 256) (c : Fin 64), x = ix4 u0 u1 r c :=
    ⟨x 0, x 1, x 2, x 3, eq_ix4 x⟩
  rw [emb_head hn hh inbq, blockOf_apply]
  unfold headPiece
  rw [shapeCast_apply _ Facts₀.shapeCasts_S256x64_S1x1x256x64 (ix4 u0 u1 r c) (ix2 r c) (by
    rw [Shape.rowMajor_val_four, Shape.rowMajor_val_two]
    show r.val * 64 + c.val = ((u0.val * 1 + u1.val) * 256 + r.val) * 64 + c.val
    have := u0.isLt; have := u1.isLt; omega)]
  have e0 := cast_ld_head (n := 256) hn hh inbq x0 Facts₀.shapeCasts_S1x1x256x64_S256x64
  have e1 := cast_ld_head (n := 2048) hn hh inbk x1 Facts₀.shapeCasts_S1x1x2048x64_S2048x64
  have e2 := cast_ld_head (n := 2048) hn hh inbk x2 Facts₀.shapeCasts_S1x1x2048x64_S2048x64
  exact congrArg (· (ix2 r c)) (congr (congr (congrArg (Cert.AttnHead.out m) e0) e1) e2)

/-- What the body leaves in the output block is the block function of the mask block compared with zero and the
    three input blocks. -/
theorem out_eq_blockOf (x0 : Vec F S1x16x256x64 .f32) (x1 x2 : Vec F S1x16x2048x64 .f32) (x3 : Vec F S1x256x2048 .i32) :
    out0_4 x0 x1 x2 x3 = blockOf (k0_pay2 (View.ld x3 r0_0)) x0 x1 x2 := by
  funext y
  unfold out0_4
  rw [pay3_eq, pay4_eq, pay7_eq, pay11_eq, pay14_eq, pay15_eq, pay16_eq, pay19_eq, pay23_eq, pay26_eq, pay27_eq, pay28_eq, pay31_eq, pay35_eq, pay38_eq, pay1_eq]
  generalize k0_pay2 (View.ld x3 r0_0) = m
  refine View.canon_apply_of_pieces (blockOf m x0 x1 x2) _ ?_ y (cover0_4 _ _ _ _ _ _ _ _ _ _ _ _ _ _ _ _ y)
  simp only [List.forall_mem_cons, List.not_mem_nil, false_imp_iff, implies_true, and_true]
  refine ⟨?_, ?_, ?_, ?_, ?_, ?_, ?_, ?_, ?_, ?_, ?_, ?_, ?_, ?_, ?_, ?_⟩
  · exact piece_eq 15 (by decide) _ _ m x0 x1 x2
  · exact piece_eq 14 (by decide) _ _ m x0 x1 x2
  · exact piece_eq 13 (by decide) _ _ m x0 x1 x2
  · exact piece_eq 12 (by decide) _ _ m x0 x1 x2
  · exact piece_eq 11 (by decide) _ _ m x0 x1 x2
  · exact piece_eq 10 (by decide) _ _ m x0 x1 x2
  · exact piece_eq 9 (by decide) _ _ m x0 x1 x2
  · exact piece_eq 8 (by decide) _ _ m x0 x1 x2
  · exact piece_eq 7 (by decide) _ _ m x0 x1 x2
  · exact piece_eq 6 (by decide) _ _ m x0 x1 x2
  · exact piece_eq 5 (by decide) _ _ m x0 x1 x2
  · exact piece_eq 4 (by decide) _ _ m x0 x1 x2
  · exact piece_eq 3 (by decide) _ _ m x0 x1 x2
  · exact piece_eq 2 (by decide) _ _ m x0 x1 x2
  · exact piece_eq 1 (by decide) _ _ m x0 x1 x2
  · exact piece_eq 0 (by decide) _ _ m x0 x1 x2

end Cert.AttnBlock

end
-- ==== Proof.AttnSpec.lean ====
/-
  Masked, scaled dot-product attention over whole arrays, entry by entry.

  For queries, keys and values `q, k, v : [2, 16, 2048, 64]` (batch, head, position, feature) and mask words
  `mask : [2, 2048, 2048]` (batch, query position, key position; shared by the heads), entry `(b, h, i, c)` of the result is
  the output, in column `c` of head `(b, h)`'s values, of the row of scores of query `i` against every key `j` of that
  head: `-∞` where `mask (b, i, j)` is zero, else `(∑ d, q (b, h, i, d) · k (b, h, j, d)) · 1/8`.
-/
import proofs.«172314_j25907242729928_2_alg».proof.Proof.AttnRow
import Idealize.ShloMosaic.Lib.ValueIdx

noncomputable section

namespace Cert.AttnSpec

open Idealize.ShloMosaic Idealize.ShloMosaic.ValueIdx

/-- The attention of whole arrays. -/
def attention (q k v : FVec Ideal ⟨4, ![2, 16, 2048, 64]⟩ .f32) (mask : IVec ⟨3, ![2, 2048, 2048]⟩ 32) :
    FVec Ideal ⟨4, ![2, 16, 2048, 64]⟩ .f32 :=
  fun i => Cert.AttnRow.rowOut
    (fun j => Cert.AttnRow.score (mask (ix3 (i 0) (i 2) j))
      (fun d => q (ix4 (i 0) (i 1) (i 2) d)) (fun d => k (ix4 (i 0) (i 1) j d)))
    (fun j => v (ix4 (i 0) (i 1) j (i 3)))

theorem attention_apply (q k v : FVec Ideal ⟨4, ![2, 16, 2048, 64]⟩ .f32) (mask : IVec ⟨3, ![2, 2048, 2048]⟩ 32)
    (b : Fin 2) (h : Fin 16) (i : Fin 2048) (c : Fin 64) :
    attention q k v mask (ix4 b h i c)
      = Cert.AttnRow.rowOut
          (fun j => Cert.AttnRow.score (mask (ix3 b i j)) (fun d => q (ix4 b h i d)) (fun d => k (ix4 b h j d)))
          (fun j => v (ix4 b h j c)) := rfl

end Cert.AttnSpec

end
-- ==== Proof.KernelValue.lean ====
/-
  The kernel's result array is the attention of its argument arrays.

  The grid has a point per batch element `b` and tile `qi` of 256 query positions. At that point the body sees, of the
  argument arrays, head by head: queries `qi·256 … qi·256 + 255` of batch `b`, every key and every value of batch `b`,
  and the rows `qi·256 …` of batch `b`'s mask; what it leaves (`AttnBlock.blockOf`) is, at `(0, h, r, c)`, the row output
  of query `qi·256 + r` of head `(b, h)` in value column `c` — the whole-array attention at `(b, h, qi·256 + r, c)`, which is
  where the output window's block at the point places `(0, h, r, c)`. The sixteen points' blocks cover the result array
  (batch `b` and tile `⌊i / 256⌋` cover position `i`), so the array ends as the attention of the arguments.
-/
import proofs.«172314_j25907242729928_2_alg».proof.Proof.Gen.KernelIdeal.Value
import proofs.«172314_j25907242729928_2_alg».proof.Proof.BlockValue
import proofs.«172314_j25907242729928_2_alg».proof.Proof.AttnSpec
import Idealize.ShloMosaic.Lib.ValueLayout

set_option maxRecDepth 16384

noncomputable section

namespace Cert.KernelValue

open Cert.KernelIdeal Cert.KernelIdeal.Gen Idealize.ShloMosaic Idealize.ShloMosaic.TcCoe Idealize.SL.Sem
open Idealize.ShloMosaic.ValueIdx
open Idealize.ShloMosaic.Pipeline (Dat)

/-! ## One point, over variables -/

/-- The mask block compared with zero, at an entry. -/
theorem mask_apply (x3 : Vec Ideal S1x256x2048 .i32) (r : Fin 256) (j : Fin 2048) :
    k0_pay2 (F := Ideal) (View.ld x3 r0_0) (ix2 r j) = IntOp.cmpi .eq (x3 (ix3 (0 : Fin 1) r j)) 0#32 := by
  have hz : (![0, 0, 0] : Fin 3 → ℕ) = fun _ => 0 := funext fun a => by fin_cases a <;> rfl
  rw [View.ld_unit_zero (S := S1x256x2048) hz]
  unfold k0_pay2
  show IntOp.cmpi .eq (shapeCast S256x2048 x3 Facts₀.shapeCasts_S1x256x2048_S256x2048 (ix2 r j)) 0#32 = _
  rw [shapeCast_1ab_ab_apply]

/-- If the four blocks are the stated parts of whole arrays `Q, K, W, M` — queries `qi·256 + r` of batch `b`, batch
    `b`'s keys and values, rows `qi·256 + r` of batch `b`'s mask — the block the body leaves is the whole arrays'
    attention at batch `b` and those query positions. -/
theorem block_eq_attention (Q K W : FVec Ideal ⟨4, ![2, 16, 2048, 64]⟩ .f32) (M : IVec ⟨3, ![2, 2048, 2048]⟩ 32)
    (x0 : Vec Ideal S1x16x256x64 .f32) (x1 x2 : Vec Ideal S1x16x2048x64 .f32) (x3 : Vec Ideal S1x256x2048 .i32)
    (b : Fin 2) (pos : Fin 256 → Fin 2048)
    (h0 : ∀ (h : Fin 16) (r : Fin 256) (d : Fin 64), x0 (ix4 (0 : Fin 1) h r d) = Q (ix4 b h (pos r) d))
    (h1 : ∀ (h : Fin 16) (j : Fin 2048) (d : Fin 64), x1 (ix4 (0 : Fin 1) h j d) = K (ix4 b h j d))
    (h2 : ∀ (h : Fin 16) (j : Fin 2048) (d : Fin 64), x2 (ix4 (0 : Fin 1) h j d) = W (ix4 b h j d))
    (h3 : ∀ (r : Fin 256) (j : Fin 2048), x3 (ix3 (0 : Fin 1) r j) = M (ix3 b (pos r) j))
    (h : Fin 16) (r : Fin 256) (c : Fin 64) :
    Cert.AttnBlock.blockOf (k0_pay2 (F := Ideal) (View.ld x3 r0_0)) x0 x1 x2 (ix4 (0 : Fin 1) h r c)
      = Cert.AttnSpec.attention Q K W M (ix4 b h (pos r) c) := by
  rw [Cert.AttnBlock.blockOf_apply, Cert.AttnHead.out_apply, Cert.AttnSpec.attention_apply]
  refine congr (congrArg Cert.AttnRow.rowOut (funext fun j => ?_)) (funext fun j => ?_)
  · unfold Cert.AttnRow.score
    rw [mask_apply, h3]
    refine congrArg (fun x => Scalar.select _ _ (x * _)) (Finset.sum_congr rfl fun d _ => ?_)
    show x0 (ix4 (0 : Fin 1) h r d) * x1 (ix4 (0 : Fin 1) h j d) = _
    rw [h0, h1]
  · show x2 (ix4 (0 : Fin 1) h j c) = _
    rw [h2]

/-! ## The grid -/

variable (m : (ℓ : Loc nD τ sig) → Buf (Elt Ideal) ℓ) (ρ : Dev nD → PrngReg)

/-- The printed index maps, decided over the sixteen points: the query and output windows move together, over batch
    and query tile; the key and value windows follow the batch only; the mask window follows batch and query tile. -/
theorem idx_facts : ∀ t : Fin cfg0.N,
    win0_0.index t (0 : Fin 4) = win0_4.index t (0 : Fin 4) ∧ win0_0.index t (1 : Fin 4) = 0
    ∧ win0_0.index t (2 : Fin 4) = win0_4.index t (2 : Fin 4) ∧ win0_0.index t (3 : Fin 4) = 0
    ∧ win0_1.index t (0 : Fin 4) = win0_4.index t (0 : Fin 4) ∧ win0_1.index t (1 : Fin 4) = 0
    ∧ win0_1.index t (2 : Fin 4) = 0 ∧ win0_1.index t (3 : Fin 4) = 0
    ∧ win0_2.index t (0 : Fin 4) = win0_4.index t (0 : Fin 4) ∧ win0_2.index t (1 : Fin 4) = 0
    ∧ win0_2.index t (2 : Fin 4) = 0 ∧ win0_2.index t (3 : Fin 4) = 0
    ∧ win0_3.index t (0 : Fin 3) = win0_4.index t (0 : Fin 4) ∧ win0_3.index t (1 : Fin 3) = win0_4.index t (2 : Fin 4)
    ∧ win0_3.index t (2 : Fin 3) = 0
    ∧ win0_4.index t (0 : Fin 4) ≤ 1 ∧ win0_4.index t (1 : Fin 4) = 0
    ∧ win0_4.index t (2 : Fin 4) ≤ 7 ∧ win0_4.index t (3 : Fin 4) = 0 :=
  (by decide +kernel : ∀ t : Fin grid0.N, _)

/-- Every batch element and query tile is some point's. -/
theorem idx_onto : ∀ (q0 : Fin 2) (q2 : Fin 8), ∃ t : Fin cfg0.N, win0_4.index t = ![q0.val, 0, q2.val, 0] :=
  (by decide +kernel : ∀ (q0 : Fin 2) (q2 : Fin 8), ∃ t : Fin grid0.N, win0_4.index t = ![q0.val, 0, q2.val, 0])

/-- The block that point `t` writes back is block `t` of the attention of the argument arrays as the region finds them:
    each input block is the stated part of its array, and the output block sits at batch `b`, positions `qi·256 + r`. -/
theorem flushed_eq (c : Dev nD) (t : Fin cfg0.N) :
    (dats m 0 c).flushed 4 t = ((cfg0.win 4).blk t).view.read (Elt Ideal)
      (Cert.AttnSpec.attention (V m c main_arg0) (V m c main_arg1) (V m c main_arg2) (V m c main_arg3)) := by
  rw [Cert.KernelIdeal.Value.flushed4]
  refine (congrArg ((cfg0.win 4).cut (grid0.coords t))
    (Cert.AttnBlock.out_eq_blockOf (F := Ideal) (iblk m c 0 t) (iblk m c 1 t) (iblk m c 2 t) (iblk m c 3 t))).trans ?_
  obtain ⟨e00, e01, e02, e03, e10, e11, e12, e13, e20, e21, e22, e23, e30, e31, e32, f0, f1, f2, f3⟩ := idx_facts t
  funext y
  obtain ⟨u, h, r, cc, rfl⟩ : ∃ (u : Fin 1) (h : Fin 16) (r : Fin 256) (cc : Fin 64), y = ix4 u h r cc :=
    ⟨y 0, y 1, y 2, y 3, eq_ix4 y⟩
  obtain rfl : u = 0 := Subsingleton.elim _ _
  have hpos : ∀ r : Fin 256, win0_4.index t (2 : Fin 4) * 256 + r.val < 2048 := fun r => by have := r.isLt; omega
  refine (block_eq_attention (V m c main_arg0) (V m c main_arg1) (V m c main_arg2) (V m c main_arg3)
    (iblk m c 0 t) (iblk m c 1 t) (iblk m c 2 t) (iblk m c 3 t)
    ⟨win0_4.index t (0 : Fin 4), by omega⟩ (fun r => ⟨win0_4.index t (2 : Fin 4) * 256 + r.val, hpos r⟩)
    ?_ ?_ ?_ ?_ h r cc).trans ?_
  · intro h r d
    show V m c main_arg0 (((cfg0.win 0).blk t).view.emb (ix4 (0 : Fin 1) h r d)) = V m c main_arg0 _
    refine congrArg _ (funext fun a => Fin.ext ?_)
    match a with
    | ⟨0, _⟩ => show win0_0.index t (0 : Fin 4) * 1 + 1 * 0 = win0_4.index t (0 : Fin 4); omega
    | ⟨1, _⟩ => show win0_0.index t (1 : Fin 4) * 16 + 1 * h.val = h.val; omega
    | ⟨2, _⟩ => show win0_0.index t (2 : Fin 4) * 256 + 1 * r.val = win0_4.index t (2 : Fin 4) * 256 + r.val; omega
    | ⟨3, _⟩ => show win0_0.index t (3 : Fin 4) * 64 + 1 * d.val = d.val; omega
  · intro h j d
    show V m c main_arg1 (((cfg0.win 1).blk t).view.emb (ix4 (0 : Fin 1) h j d)) = V m c main_arg1 _
    refine congrArg _ (funext fun a => Fin.ext ?_)
    match a with
    | ⟨0, _⟩ => show win0_1.index t (0 : Fin 4) * 1 + 1 * 0 = win0_4.index t (0 : Fin 4); omega
    | ⟨1, _⟩ => show win0_1.index t (1 : Fin 4) * 16 + 1 * h.val = h.val; omega
    | ⟨2, _⟩ => show win0_1.index t (2 : Fin 4) * 2048 + 1 * j.val = j.val; omega
    | ⟨3, _⟩ => show win0_1.index t (3 : Fin 4) * 64 + 1 * d.val = d.val; omega
  · intro h j d
    show V m c main_arg2 (((cfg0.win 2).blk t).view.emb (ix4 (0 : Fin 1) h j d)) = V m c main_arg2 _
    refine congrArg _ (funext fun a => Fin.ext ?_)
    match a with
    | ⟨0, _⟩ => show win0_2.index t (0 : Fin 4) * 1 + 1 * 0 = win0_4.index t (0 : Fin 4); omega
    | ⟨1, _⟩ => show win0_2.index t (1 : Fin 4) * 16 + 1 * h.val = h.val; omega
    | ⟨2, _⟩ => show win0_2.index t (2 : Fin 4) * 2048 + 1 * j.val = j.val; omega
    | ⟨3, _⟩ => show win0_2.index t (3 : Fin 4) * 64 + 1 * d.val = d.val; omega
  · intro r j
    show V m c main_arg3 (((cfg0.win 3).blk t).view.emb (ix3 (0 : Fin 1) r j)) = V m c main_arg3 _
    refine congrArg _ (funext fun a => Fin.ext ?_)
    match a with
    | ⟨0, _⟩ => show win0_3.index t (0 : Fin 3) * 1 + 1 * 0 = win0_4.index t (0 : Fin 4); omega
    | ⟨1, _⟩ => show win0_3.index t (1 : Fin 3) * 256 + 1 * r.val = win0_4.index t (2 : Fin 4) * 256 + r.val; omega
    | ⟨2, _⟩ => show win0_3.index t (2 : Fin 3) * 2048 + 1 * j.val = j.val; omega
  · show Cert.AttnSpec.attention (V m c main_arg0) (V m c main_arg1) (V m c main_arg2) (V m c main_arg3) _
      = Cert.AttnSpec.attention (V m c main_arg0) (V m c main_arg1) (V m c main_arg2) (V m c main_arg3)
          (((cfg0.win 4).blk t).view.emb (ix4 (0 : Fin 1) h r cc))
    refine congrArg _ (funext fun a => Fin.ext ?_)
    match a with
    | ⟨0, _⟩ => show win0_4.index t (0 : Fin 4) = win0_4.index t (0 : Fin 4) * 1 + 1 * 0; omega
    | ⟨1, _⟩ => show h.val = win0_4.index t (1 : Fin 4) * 16 + 1 * h.val; omega
    | ⟨2, _⟩ => show win0_4.index t (2 : Fin 4) * 256 + r.val = win0_4.index t (2 : Fin 4) * 256 + 1 * r.val; omega
    | ⟨3, _⟩ => show cc.val = win0_4.index t (3 : Fin 4) * 64 + 1 * cc.val; omega

/-- An index of the result array is in point `t`'s block iff each coordinate is in the block's range on its axis. -/
theorem mem_blk (t : Fin cfg0.N) (i : S2x16x2048x64.Idx) :
    i ∈ ((cfg0.win 4).blk t).view.set ↔ ∀ a : Fin 4, win0_4.index t a * S1x16x256x64.size a ≤ (i a).val
      ∧ (i a).val < win0_4.index t a * S1x16x256x64.size a + S1x16x256x64.size a := by
  show i ∈ ((View.whole main_v0).slice (win0_4.rect t)).set ↔ _
  rw [View.set_slice_whole, Rect.mem_set_unit]
  exact Iff.rfl

/-- Every index of the result array is in some point's block. -/
theorem cover (i : S2x16x2048x64.Idx) :
    ∃ t : Fin cfg0.N, (cfg0.win 4).flush t = true ∧ i ∈ ((cfg0.win 4).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto ⟨(i 0).val, hi0⟩ ⟨(i 2).val / 256, by omega⟩
  have q0 : win0_4.index t (0 : Fin 4) = (i 0).val := congrFun ht 0
  have q1 : win0_4.index t (1 : Fin 4) = 0 := congrFun ht 1
  have q2 : win0_4.index t (2 : Fin 4) = (i 2).val / 256 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 16 ≤ (i 1).val ∧ (i 1).val < win0_4.index t (1 : Fin 4) * 16 + 16; omega
  | ⟨2, _⟩ => show win0_4.index t (2 : Fin 4) * 256 ≤ (i 2).val ∧ (i 2).val < win0_4.index t (2 : Fin 4) * 256 + 256; omega
  | ⟨3, _⟩ => show win0_4.index t (3 : Fin 4) * 64 ≤ (i 3).val ∧ (i 3).val < win0_4.index t (3 : Fin 4) * 64 + 64; omega

/-- The result array after the run is the attention of the argument arrays: every block is, and the blocks cover it. -/
theorem final (c : Dev nD) :
    (dats m 0 c).arrAt 4 cfg0.N
      = Cert.AttnSpec.attention (m ((c : Thread nD τ).loc main_arg0)) (m ((c : Thread nD τ).loc main_arg1))
          (m ((c : Thread nD τ).loc main_arg2)) (m ((c : Thread nD τ).loc main_arg3)) :=
  (dats m 0 c).arrAt_eq_of_cover 4 _ (fun t _ => flushed_eq m c t) cover

/-- The kernel's run: the result at the attention of the arguments, the arguments unchanged. -/
theorem run : θ_run defs (onTc (τ := τ) (main (F := Ideal))) ⟨m, fun _ => 0, ρ⟩ fun r => ∀ c : Dev nD,
      r.2.mem ((c : Thread nD τ).loc main_v0)
        = Cert.AttnSpec.attention (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelValue

end
-- ==== Proof.RefValue.lean ====
/-
  The reference computes the attention of the whole arrays.

  Read stage by stage, at an entry: the scores are the batched dot products divided by `√64` and replaced by `-∞` where
  the mask word is zero (the mask is shared by the heads); the row maximum is a fold of `max` from `-∞` over the key
  positions, taken with `-∞` once more; the shifted exponentials are summed from zero over the key positions; each is
  divided by its row's sum; the result is the batched product with the values. Dividing by `√64` is scaling by `1/8`
  and the extra maximum with `-∞` changes nothing (`AttnRow`), so every row is a row of `AttnSpec.attention`.
-/
import proofs.«172314_j25907242729928_2_alg».proof.Proof.Gen.ReferenceIdeal.Read
import proofs.«172314_j25907242729928_2_alg».proof.Proof.AttnSpec
import Idealize.ShloMosaic.PureOps.Ideal.Laws
import Idealize.ShloMosaic.Lib.ValueIdx

noncomputable section

namespace Cert.RefValue

open Idealize.ShloMosaic Idealize.ShloMosaic.ValueIdx
open Cert.ReferenceIdeal Cert.ReferenceIdeal.Read
open scoped BigOperators

variable (x0 x1 x2 : (⟨S2x16x2048x64, .f32⟩ : BufTy).Contents (Elt Ideal))
  (x3 : (⟨S2x2048x2048, .i32⟩ : BufTy).Contents (Elt Ideal))

/-- The row of scores of query `i` of head `(b, h)`. -/
def row (b : Fin 2) (h : Fin 16) (i : Fin 2048) : Fin 2048 → EReal :=
  fun j => Cert.AttnRow.score (x3 (ix3 b i j)) (fun d => x0 (ix4 b h i d)) (fun d => x1 (ix4 b h j d))

/-- The masked scores, at an entry. -/
theorem scores_at (b : Fin 2) (h : Fin 16) (i j : Fin 2048) :
    val_main_v7 (F := Ideal) x0 x1 x3 (ix4 b h i j) = row x0 x1 x3 b h i j := by
  have e4 : idx_main_v4 (idx_main_call0_v1 (ix4 b h i j)) = ix3 b i j :=
    funext fun a => Fin.ext (by match a with | ⟨0, _⟩ => rfl | ⟨1, _⟩ => rfl | ⟨2, _⟩ => rfl)
  have el : ∀ d : Fin 64, lidx_main_v0 (ix4 b h i j) d = ix4 b h i d := fun d =>
    funext fun a => Fin.ext (by match a with | ⟨0, _⟩ => rfl | ⟨1, _⟩ => rfl | ⟨2, _⟩ => rfl | ⟨3, _⟩ => rfl)
  have er : ∀ d : Fin 64, ridx_main_v0 (ix4 b h i j) d = ix4 b h j d := fun d =>
    funext fun a => Fin.ext (by match a with | ⟨0, _⟩ => rfl | ⟨1, _⟩ => rfl | ⟨2, _⟩ => rfl | ⟨3, _⟩ => rfl)
  rw [val_main_v7_apply, val_main_call0_v1_apply, val_main_v6_apply, val_main_v4_apply, val_main_v5_apply,
    val_main_c_apply, val_main_call0_v2_apply, val_main_call0_v0_apply, val_main_cst_0_apply, val_main_v3_apply,
    val_main_v0_apply, val_main_v2_apply, val_main_v1_apply, val_main_cst_apply, e4]
  simp only [el, er, Ideal.ofBits_def, Ideal.hostDivf_def, Ideal.hostUnary_sqrt_def]
  unfold row Cert.AttnRow.score
  rw [Cert.AttnRow.scale_eq]

/-- The index over `(b, h, i)` with key position `j` inserted on the reduced axis. -/
theorem lift_key (hr : S2x16x2048x2048.Reduces [3] S2x16x2048) (b : Fin 2) (h : Fin 16) (i j : Fin 2048) :
    hr.lift (ix3 b h i) j = ix4 b h i j :=
  funext fun a => Fin.ext (by match a with | ⟨0, _⟩ => rfl | ⟨1, _⟩ => rfl | ⟨2, _⟩ => rfl | ⟨3, _⟩ => rfl)

/-- The row maximum, at an entry: the extra maximum with `-∞` drops. -/
theorem max_at (b : Fin 2) (h : Fin 16) (i : Fin 2048) :
    val_main_v10 (F := Ideal) x0 x1 x3 (ix3 b h i) = Cert.AttnRow.rowMax (row x0 x1 x3 b h i) := by
  have hr : S2x16x2048x2048.Reduces [3] S2x16x2048 := by decide
  rw [val_main_v10_apply, val_main_v9_apply, val_main_cst_2_apply]
  simp only [Ideal.ofBits_def, Ideal.maximumf_def]
  rw [Cert.AttnRow.max_negInf]
  unfold val_main_v8
  have key := Host.reduce_eq_fold_single (α := Ideal .f32) (s := S2x16x2048x2048) (t := S2x16x2048) (u := S_)
    (FloatOps.maximumf (F := Ideal) (φ := .f32)) (val_main_v7 (F := Ideal) x0 x1 x3) (val_main_cst_1 (F := Ideal))
    Facts₀.reducesTo_S2x16x2048x2048_S2x16x2048_d3 hr Facts₀.h_S_ (ix3 b h i)
  refine key.trans ?_
  unfold Cert.AttnRow.rowMax
  refine congrArg (Finset.fold max _ · _) (funext fun j => ?_)
  exact (congrArg (val_main_v7 (F := Ideal) x0 x1 x3) (lift_key hr b h i j)).trans (scores_at x0 x1 x3 b h i j)

/-- The shifted exponentials, at an entry. -/
theorem exp_at (b : Fin 2) (h : Fin 16) (i j : Fin 2048) :
    val_main_v14 (F := Ideal) x0 x1 x3 (ix4 b h i j)
      = Ideal.exp (row x0 x1 x3 b h i j - Cert.AttnRow.rowMax (row x0 x1 x3 b h i)) := by
  have e12 : idx_main_v11 (idx_main_v12 (ix4 b h i j)) = ix3 b h i :=
    funext fun a => Fin.ext (by match a with | ⟨0, _⟩ => rfl | ⟨1, _⟩ => rfl | ⟨2, _⟩ => rfl)
  rw [val_main_v14_apply, val_main_v13_apply, val_main_v12_apply, val_main_v11_apply, e12, scores_at, max_at]
  simp only [Ideal.hostUnary_exp_def, Ideal.subf_def]

/-- The normalised rows, at an entry: the row's weight at the key position. -/
theorem weight_at (b : Fin 2) (h : Fin 16) (i j : Fin 2048) :
    val_main_v18 (F := Ideal) x0 x1 x3 (ix4 b h i j) = Cert.AttnRow.weight (row x0 x1 x3 b h i) j := by
  have e17 : idx_main_v16 (idx_main_v17 (ix4 b h i j)) = ix3 b h i :=
    funext fun a => Fin.ext (by match a with | ⟨0, _⟩ => rfl | ⟨1, _⟩ => rfl | ⟨2, _⟩ => rfl)
  have e15 : ∀ j' : Fin 2048, idx_main_v15 (ix3 b h i) j' = ix4 b h i j' := fun j' =>
    funext fun a => Fin.ext (by match a with | ⟨0, _⟩ => rfl | ⟨1, _⟩ => rfl | ⟨2, _⟩ => rfl | ⟨3, _⟩ => rfl)
  rw [val_main_v18_apply, val_main_v17_apply, val_main_v16_apply, e17, val_main_v15_apply, val_main_cst_3_apply, exp_at]
  simp only [e15, exp_at, Ideal.ofBits_def, Ideal.hostDivf_def, Ideal.ofBits_zero_f32, zero_add]
  rfl

/-- The reference's result is the attention of its arguments. -/
theorem result_eq :
    val_main_v19 (F := Ideal) x0 x1 x2 x3 = Cert.AttnSpec.attention x0 x1 x2 x3 := by
  funext y
  obtain ⟨b, h, i, c, rfl⟩ : ∃ (b : Fin 2) (h : Fin 16) (i : Fin 2048) (c : Fin 64), y = ix4 b h i c :=
    ⟨y 0, y 1, y 2, y 3, eq_ix4 y⟩
  have el : ∀ j : Fin 2048, lidx_main_v19 (ix4 b h i c) j = ix4 b h i j := fun j =>
    funext fun a => Fin.ext (by match a with | ⟨0, _⟩ => rfl | ⟨1, _⟩ => rfl | ⟨2, _⟩ => rfl | ⟨3, _⟩ => rfl)
  have er : ∀ j : Fin 2048, ridx_main_v19 (ix4 b h i c) j = ix4 b h j c := fun j =>
    funext fun a => Fin.ext (by match a with | ⟨0, _⟩ => rfl | ⟨1, _⟩ => rfl | ⟨2, _⟩ => rfl | ⟨3, _⟩ => rfl)
  rw [val_main_v19_apply, Cert.AttnSpec.attention_apply]
  unfold Cert.AttnRow.rowOut
  refine Finset.sum_congr rfl fun j _ => ?_
  rw [el, er, weight_at]
  rfl

end Cert.RefValue

end
-- ==== Proof.lean ====
/-
  A tiled attention kernel against scaled dot-product attention written with `einsum` and `softmax`.

  The kernel works on one batch element and one tile of 256 query positions per grid point and, inside, head by head:
  scores `(q · kᵀ) · 1/8`, `-∞` where the mask word is zero, the row maximum, the shifted exponentials, their row sums,
  the quotient, and the product with the values. The reference does the same on whole arrays, dividing the scores by
  `√64` instead and taking the row maximum with `-∞` once more. On the extended reals both end with the same array
  (`AttnSpec.attention`): `KernelValue.run` reads the kernel's result off its blocks, `RefValue.result_eq` reads the
  reference's stage by stage, and the two scalar laws that join them — `x · 1/8 = x / √64` and `max (-∞) x = x`, both at
  every extended real — are in `AttnRow`. No finiteness of the inputs is used: the two sides are the same operations on
  the same entries, so they agree at the infinities and at fully masked rows too.

  The three frames are the generated ones (the reference's from its generated run); the kernel's idealization rewrote
  nothing, so `preserves` is trivial.
-/
import proofs.«172314_j25907242729928_2_alg».proof.Defs
import proofs.«172314_j25907242729928_2_alg».proof.Proof.Gen.Kernel
import proofs.«172314_j25907242729928_2_alg».proof.Proof.Gen.Kernel.Skeleton
import proofs.«172314_j25907242729928_2_alg».proof.Proof.Gen.Kernel.Launch
import proofs.«172314_j25907242729928_2_alg».proof.Proof.Gen.Kernel.Points
import proofs.«172314_j25907242729928_2_alg».proof.Proof.Gen.Kernel.Frame
import proofs.«172314_j25907242729928_2_alg».proof.Proof.Gen.KernelIdeal
import proofs.«172314_j25907242729928_2_alg».proof.Proof.Gen.KernelIdeal.Skeleton
import proofs.«172314_j25907242729928_2_alg».proof.Proof.Gen.KernelIdeal.Launch
import proofs.«172314_j25907242729928_2_alg».proof.Proof.Gen.KernelIdeal.Points
import proofs.«172314_j25907242729928_2_alg».proof.Proof.Gen.KernelIdeal.Frame
import proofs.«172314_j25907242729928_2_alg».proof.Proof.Gen.ReferenceIdeal
import proofs.«172314_j25907242729928_2_alg».proof.Proof.Gen.Pre_finite_inputs
import proofs.«172314_j25907242729928_2_alg».proof.Proof.Gen.KernelIdeal.Value
import proofs.«172314_j25907242729928_2_alg».proof.Proof.Gen.ReferenceIdeal.Run
import proofs.«172314_j25907242729928_2_alg».proof.Proof.Gen.ReferenceIdeal.Read
import proofs.«172314_j25907242729928_2_alg».proof.Proof.KernelValue
import proofs.«172314_j25907242729928_2_alg».proof.Proof.RefValue
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the attention of their arguments, and the arguments agree. -/
theorem algebraic : Cert.algebraic_KernelIdeal_ReferenceIdeal := by
  intro m ρ m' ρ' _ hagree
  refine ⟨fun c => Cert.AttnSpec.attention
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.RefValue.result_eq, (hagree c).1, (hagree c).2.1,
    (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
